-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S1024x1024 .f32) (main_arg2 : FVec F S1024 .f32) (main_arg3 : FVec F S1024x1024 .f32) (main_arg4 : FVec F S1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S_ : Shape := ⟨0, ![]⟩
abbrev S1x1 : Shape := ⟨2, ![1, 1]⟩
abbrev S1024x1 : Shape := ⟨2, ![1024, 1]⟩

abbrev nBuf : Space → Nat
  | .hbm => 23
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S32768x1024, .f32⟩
  | .hbm, ⟨22, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  bitsLt_bf16_f32 : FTy.bits .bf16 < FTy.bits .f32
  shapeCasts_S1024_S1x1024 : S1024.ShapeCasts S1x1024
  reducesTo_S1024x1024_S1024_d1 : S1024x1024.ReducesTo [1] S1024
  h_S_ : 0 < S_.numel
  bcast_S_S1024 : S_.BroadcastsInDim S1024 (![] : Fin 0 → Fin S1024.rank)
  reducesTo_S1024_S_d0 : S1024.ReducesTo [0] S_
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  broadcasts_S1024x1_S1024x1024 : S1024x1.Broadcasts S1024x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x4096x1024, .f32⟩
  | .hbm, ⟨7, _⟩ => ⟨S1x1x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S1x1x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  dot_S8x4096x1024_S1024x1024_S8x4096x1024_2_0_01_1_n_n_wf : DotDims.WF S8x4096x1024 S1024x1024 S8x4096x1024 [2] [0] [0, 1] [1] [] []

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf

class Facts : Prop extends Facts₀ where

variable [Facts]
-- ==== Proof.Spec.lean ====
/-
  The result of both programs, index by index over the extended reals, in the two arrangements the programs use,
  and the law that joins them.

  With x : [8, 4096, 1024], Wa, Wb : [1024, 1024], ba, bb, g : [1024], the entry (b, n, h) of the result is

      (g h · (Σ_d x(b,n,d) · Wa(d,h) + ba h)) · mean(b, n)

  where mean(b, n) is the mean over h' of Σ_d x(b,n,d) · Wb(d,h') + bb h'. One arrangement takes that mean as written: the sum over h'
  (from the zero word) divided by the word of 1024. The other moves the mean inside the contraction:
  Σ_d x(b,n,d) · (mean over h' of Wb(d,h')) + (mean over h' of bb h'). Both means divide by the same word, so no constant is
  ever evaluated beyond 0 and 1024; what joins the two is distributivity of the division over the sums and the exchange of
  the two sums, which hold on real numbers and fail at the infinities — hence the finiteness hypotheses of `mean_eq`.
-/
import Idealize.ShloMosaic.PureOps.Ideal.Laws
import Idealize.ShloMosaic.Lib.ValueIdx

noncomputable section

namespace Cert.Spec

open Idealize.ShloMosaic Idealize.ShloMosaic.ValueIdx

/-- The three array types of the arguments, as functions to the extended reals. -/
abbrev A3 := (⟨3, ![8, 4096, 1024]⟩ : Shape).Idx → EReal
abbrev A2 := (⟨2, ![1024, 1024]⟩ : Shape).Idx → EReal
abbrev A1 := (⟨1, ![1024]⟩ : Shape).Idx → EReal

/-- The f32 word of 1024, the divisor of every mean here, and the zero word every host sum starts from. -/
abbrev c1024 : EReal := Ideal.ofBits .f32 0x44800000#32
abbrev czero : EReal := Ideal.ofBits .f32 0x00000000#32

/-- Row (b, n) of `x` against column `h` of a matrix. -/
def rowDot (x : A3) (W : A2) (b : Fin 8) (n : Fin 4096) (h : Fin 1024) : EReal :=
  ∑ d : Fin 1024, x (ix3 b n d) * W (ix2 d h)

/-- The factor both arrangements share: g h · (x(b,n,·) · Wa(·,h) + ba h). -/
def gated (x : A3) (Wa : A2) (ba g : A1) (b : Fin 8) (n : Fin 4096) (h : Fin 1024) : EReal :=
  g (ix1 h) * (rowDot x Wa b n h + ba (ix1 h))

/-- The mean taken as written: over h' of x(b,n,·) · Wb(·,h') + bb h'. -/
def meanRef (x : A3) (Wb : A2) (bb : A1) (b : Fin 8) (n : Fin 4096) : EReal :=
  Ideal.div (czero + ∑ h : Fin 1024, (rowDot x Wb b n h + bb (ix1 h))) c1024

/-- The mean of row `d` of `Wb`, and the mean of `bb`. -/
def rowMean (Wb : A2) (d : Fin 1024) : EReal := Ideal.div (czero + ∑ h : Fin 1024, Wb (ix2 d h)) c1024
def biasMean (bb : A1) : EReal := Ideal.div (czero + ∑ h : Fin 1024, bb (ix1 h)) c1024

/-- The mean moved inside the contraction: x(b,n,·) against the row means of `Wb`, plus the mean of `bb`. -/
def meanKer (x : A3) (Wb : A2) (bb : A1) (b : Fin 8) (n : Fin 4096) : EReal :=
  (∑ d : Fin 1024, x (ix3 b n d) * rowMean Wb d) + biasMean bb

/-- The result with the mean taken as written. -/
def Gref (x : A3) (Wa : A2) (ba : A1) (Wb : A2) (bb g : A1) : A3 := fun i =>
  gated x Wa ba g (i 0) (i 1) (i 2) * meanRef x Wb bb (i 0) (i 1)

/-- The result with the mean moved inside the contraction. -/
def Gker (x : A3) (Wa : A2) (ba : A1) (Wb : A2) (bb g : A1) : A3 := fun i =>
  gated x Wa ba g (i 0) (i 1) (i 2) * meanKer x Wb bb (i 0) (i 1)

/-- The inclusion of the reals in the extended reals carries a finite sum to the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on real numbers: a mean (a sum times a constant) of x · w(·, h) + b h over h is x against the means of w's rows
    plus the mean of b. -/
theorem real_law {D H : Type} [Fintype D] [Fintype H] (x : D → ℝ) (w : D → H → ℝ) (b : H → ℝ) (c : ℝ) :
    (∑ h, (∑ d, x d * w d h + b h)) * c = ∑ d, x d * ((∑ h, w d h) * c) + (∑ h, b h) * c := by
  rw [Finset.sum_add_distrib, add_mul, Finset.sum_comm, Finset.sum_mul]
  congr 1
  refine Finset.sum_congr rfl fun d _ => ?_
  rw [← Finset.mul_sum]
  ring

/-- The word 0x44800000 is the real 1024. -/
theorem c1024_eq : c1024 = ((1024 : ℝ) : EReal) := by
  simp [c1024, Ideal.ofBits, Ideal.ieee, -EReal.coe_mul]; norm_num

theorem czero_eq : czero = 0 := Ideal.ofBits_zero_f32

/-- THE LAW: where every entry of x, Wb and bb is a real number, the two means agree. -/
theorem mean_eq (x : A3) (Wb : A2) (bb : A1) (hx : ∀ i, ∃ r : ℝ, x i = (r : EReal)) (hW : ∀ i, ∃ r : ℝ, Wb i = (r : EReal))
    (hb : ∀ i, ∃ r : ℝ, bb i = (r : EReal)) (b : Fin 8) (n : Fin 4096) : meanRef x Wb bb b n = meanKer x Wb bb b n := by
  choose xr hxr using hx
  choose wr hwr using hW
  choose br hbr using hb
  have hl : meanRef x Wb bb b n = (((∑ h : Fin 1024, (∑ d : Fin 1024, xr (ix3 b n d) * wr (ix2 d h) + br (ix1 h))) * (1 / 1024 : ℝ) : ℝ) : EReal) := by
    unfold meanRef rowDot
    rw [c1024_eq, czero_eq, zero_add, Ideal.div_coe (by norm_num : (1024 : ℝ) ≠ 0)]
    simp only [hxr, hwr, hbr, ← EReal.coe_mul, ← EReal.coe_add, ← coe_sum]
  have hr : meanKer x Wb bb b n = ((∑ d : Fin 1024, xr (ix3 b n d) * ((∑ h : Fin 1024, wr (ix2 d h)) * (1 / 1024 : ℝ)) + (∑ h : Fin 1024, br (ix1 h)) * (1 / 1024 : ℝ) : ℝ) : EReal) := by
    unfold meanKer rowMean biasMean
    rw [c1024_eq, czero_eq]
    simp only [zero_add, Ideal.div_coe (by norm_num : (1024 : ℝ) ≠ 0), hxr, hwr, hbr, ← EReal.coe_mul, ← EReal.coe_add, ← coe_sum]
  rw [hl, hr, real_law]

/-- So the two arrangements of the result agree under the same hypotheses. -/
theorem Gref_eq_Gker (x : A3) (Wa : A2) (ba : A1) (Wb : A2) (bb g : A1) (hx : ∀ i, ∃ r : ℝ, x i = (r : EReal))
    (hW : ∀ i, ∃ r : ℝ, Wb i = (r : EReal)) (hb : ∀ i, ∃ r : ℝ, bb i = (r : EReal)) :
    Gref x Wa ba Wb bb g = Gker x Wa ba Wb bb g := by
  funext i
  exact congrArg (fun t => gated x Wa ba g (i 0) (i 1) (i 2) * t) (mean_eq x Wb bb hx hW hb (i 0) (i 1))

end Cert.Spec

end
-- ==== Proof.RefValue.lean ====
/-
  The reference's result is `Gref`: read one operation at a time, entry (b, n, h) of its last stage is
  (g h · (Σ_d x(b,n,d) · Wa(d,h) + ba h)) times the quotient by the word of 1024 of the zero word plus the sum over h' of
  Σ_d x(b,n,d) · Wb(d,h') + bb h' — the broadcasts only rename coordinates.
-/
import proofs.«159089_j16071767621818_1_alg».proof.Proof.Gen.ReferenceIdeal.Read
import proofs.«159089_j16071767621818_1_alg».proof.Proof.Spec

noncomputable section

namespace Cert.ReferenceIdeal.RefValue

open Cert.ReferenceIdeal Cert.ReferenceIdeal.Read Idealize.ShloMosaic Idealize.ShloMosaic.ValueIdx Cert.Spec

/-- The composed coordinate maps of the stages, named by coordinates. -/
theorem lidx0 (b : Fin 8) (n : Fin 4096) (h k : Fin 1024) : lidx_main_v0 (ix3 b n h) k = ix3 b n k :=
  funext fun a => Fin.ext (by match a with | ⟨0, _⟩ => rfl | ⟨1, _⟩ => rfl | ⟨2, _⟩ => rfl)
theorem ridx0 (b : Fin 8) (n : Fin 4096) (h k : Fin 1024) : ridx_main_v0 (ix3 b n h) k = ix2 k h :=
  funext fun a => Fin.ext (by match a with | ⟨0, _⟩ => rfl | ⟨1, _⟩ => rfl)
theorem lidx4 (b : Fin 8) (n : Fin 4096) (h k : Fin 1024) : lidx_main_v4 (ix3 b n h) k = ix3 b n k :=
  funext fun a => Fin.ext (by match a with | ⟨0, _⟩ => rfl | ⟨1, _⟩ => rfl | ⟨2, _⟩ => rfl)
theorem ridx4 (b : Fin 8) (n : Fin 4096) (h k : Fin 1024) : ridx_main_v4 (ix3 b n h) k = ix2 k h :=
  funext fun a => Fin.ext (by match a with | ⟨0, _⟩ => rfl | ⟨1, _⟩ => rfl)
theorem idx_ba (b : Fin 8) (n : Fin 4096) (h : Fin 1024) : idx_main_v1 (idx_main_v2 (ix3 b n h)) = ix1 h :=
  funext fun a => Fin.ext (by match a with | ⟨0, _⟩ => rfl)
theorem idx_bb (b : Fin 8) (n : Fin 4096) (h : Fin 1024) : idx_main_v5 (idx_main_v6 (ix3 b n h)) = ix1 h :=
  funext fun a => Fin.ext (by match a with | ⟨0, _⟩ => rfl)
theorem idx_g (b : Fin 8) (n : Fin 4096) (h : Fin 1024) : idx_main_v12 (idx_main_v13 (ix3 b n h)) = ix1 h :=
  funext fun a => Fin.ext (by match a with | ⟨0, _⟩ => rfl)
theorem idx_row (b : Fin 8) (n : Fin 4096) (h k : Fin 1024) : idx_main_v8 (idx_main_v9 (idx_main_v15 (ix3 b n h))) k = ix3 b n k :=
  funext fun a => Fin.ext (by match a with | ⟨0, _⟩ => rfl | ⟨1, _⟩ => rfl | ⟨2, _⟩ => rfl)

/-- One summand of the reference's mean: entry (b, n, k) of x · Wb + bb. -/
theorem v7_at (x0 : FVec Ideal S8x4096x1024 .f32) (x3 : FVec Ideal S1024x1024 .f32) (x4 : FVec Ideal S1024 .f32)
    (b : Fin 8) (n : Fin 4096) (k : Fin 1024) :
    val_main_v7 (F := Ideal) x0 x3 x4 (ix3 b n k) = rowDot x0 x3 b n k + x4 (ix1 k) := by
  rw [val_main_v7_apply, val_main_v4_apply, val_main_v6_apply, val_main_v5_apply]
  simp only [lidx4, ridx4, idx_bb, Ideal.addf_def]
  rfl

theorem result_eq (x0 : FVec Ideal S8x4096x1024 .f32) (x1 : FVec Ideal S1024x1024 .f32) (x2 : FVec Ideal S1024 .f32)
    (x3 : FVec Ideal S1024x1024 .f32) (x4 x5 : FVec Ideal S1024 .f32) :
    val_main_v16 (F := Ideal) x0 x1 x2 x3 x4 x5 = Gref x0 x1 x2 x3 x4 x5 := by
  funext i
  obtain ⟨b, n, h, rfl⟩ : ∃ (b : Fin 8) (n : Fin 4096) (h : Fin 1024), i = ix3 b n h := ⟨i 0, i 1, i 2, eq_ix3 i⟩
  rw [val_main_v16_apply, val_main_v14_apply, val_main_v13_apply, val_main_v12_apply, val_main_v3_apply, val_main_v0_apply,
    val_main_v2_apply, val_main_v1_apply, val_main_v15_apply, val_main_v11_apply, val_main_v9_apply, val_main_v8_apply,
    val_main_v10_apply, val_main_cst_0_apply, val_main_cst_apply]
  simp only [lidx0, ridx0, idx_ba, idx_g, idx_row, v7_at, Ideal.mulf_def, Ideal.addf_def, Ideal.hostDivf_def, Ideal.ofBits_def]
  rfl

end Cert.ReferenceIdeal.RefValue

end
-- ==== Proof.Finite.lean ====
import proofs.«159089_j16071767621818_1_alg».proof.Proof.Gen.Pre_finite_inputs
import Idealize.ShloMosaic.PureOps.Ideal.Laws
import Idealize.ShloMosaic.Lib.ValueIdx
import Idealize.ShloMosaic.Lib.ReduceAll

/-!
# Finiteness of the inputs, read off the precondition

At the ideal instance a float is an extended real, and "finite" means "is a real number": neither `⊤` nor `⊥`.
The precondition computes, for each of its six input arrays, the conjunction over all entries `x` of the test
`|x| < +∞`, where `|x|` is `max x (-x)` and `+∞` is what the `f32` word `0x7F800000` denotes, namely `⊤`; it then
takes the conjunction of the six results. A conjunction of one-bit words is `1` exactly when every conjunct is `1`, so
from the precondition being `1` each of the six per-array conjunctions is `1`, hence each entry's test is `1`, hence
`max x (-x) < ⊤` for every entry `x` of every array. On the extended reals this excludes `x = ⊤` (then `max x (-x) = ⊤`)
and `x = ⊥` (then `-x = ⊤`), so `x` is the image of a real number.
-/

noncomputable section

open Idealize.ShloMosaic

namespace Cert.Finite

/-- The `f32` word `0x7F800000` (sign 0, exponent all ones, significand 0) denotes `+∞`. -/
theorem ofBits_posInf : Ideal.ofBits .f32 0x7F800000#32 = (⊤ : EReal) := by
  simp [Ideal.ofBits, Ideal.ieee]

/-- An extended real whose absolute value `max x (-x)` tests strictly below `+∞` is a real number: `⊤` fails the test
    because `max ⊤ (-⊤) = ⊤`, and `⊥` fails it because `-⊥ = ⊤`. -/
theorem real_of_abs_lt_posInf (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    have h' : BitVec.ofBool (decide (max x (-x) < (⊤ : EReal))) = 1#1 := h
    rw [decide_eq_false hn] at h'
    exact absurd h' (by decide)
  induction x using EReal.rec with
  | bot => simp at hlt
  | top => simp at hlt
  | coe r => exact ⟨r, rfl⟩

/-- The result shape of a reduction over all axes has exactly one index. -/
instance : Subsingleton Cert.Pre_finite_inputs.S_.Idx := ⟨fun a b => funext fun d => d.elim0⟩

/-- One array's share of the precondition, at any shape: if the conjunction over all entries of `|a i| < +∞` is `1`,
    every entry of `a` is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim s ![] hb (constant Cert.Pre_finite_inputs.S_ .f32 0x7F800000#32)))
          (constantI Cert.Pre_finite_inputs.S_ 1 1#1) hr hu j = 1#1) :
    ∀ i, ∃ r : ℝ, a i = (r : EReal) := by
  intro i
  have hi := Host.reduce_andi_all _ _ hr hu j e i
  exact real_of_abs_lt_posInf (a i) hi

/-- If the precondition holds (its one-bit result is `1`), every entry of every input array is a real number. -/
theorem real_of_pre [Cert.Pre_finite_inputs.Facts]
    (a0 : FVec Ideal Cert.Pre_finite_inputs.S8x4096x1024 .f32) (a1 : FVec Ideal Cert.Pre_finite_inputs.S1024x1024 .f32)
    (a2 : FVec Ideal Cert.Pre_finite_inputs.S1024 .f32) (a3 : FVec Ideal Cert.Pre_finite_inputs.S1024x1024 .f32)
    (a4 : FVec Ideal Cert.Pre_finite_inputs.S1024 .f32) (a5 : FVec Ideal Cert.Pre_finite_inputs.S1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨e0, e1⟩, e2⟩, e3⟩, e4⟩, e5⟩ := h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5⟩

end Cert.Finite

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KerPayload.lean ====
/-
  The body's stored value read at an entry. With the body's six loaded blocks X : [1024, 1024] (rows of x), A : [1024, 1024]
  (Wa), p, q, s : [1, 1024] (ba, the row means of Wb, g) and u : [1, 1] (the mean of bb), entry (r, h) of what it stores is

      (s h · (Σ_d X(r,d) · A(d,h) + p h)) · (Σ_d X(r,d) · q d + u)

  at the extended reals: the change of float format is the identity, the matrix product into the zero splat is the plain sum over
  the contracted axis, the lane sum is the sum over the row, and the broadcasts and casts only rename coordinates.
-/
import proofs.«159089_j16071767621818_1_alg».proof.Proof.Gen.KernelIdeal.Skeleton
import proofs.«159089_j16071767621818_1_alg».proof.Proof.LibColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The coordinates of the product's operand indices: the left operand at (row of the output, contracted coordinate), the right at
    (contracted coordinate, column of the output). -/
theorem lhs_0 (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (j : S1024x1024.Idx) (q : dot_S1024x1024_S1024x1024_S1024x1024_1_0_0_1_n_n.contr.Idx) : (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_0 (j : S1024x1024.Idx) (q : dot_S1024x1024_S1024x1024_S1024x1024_1_0_0_1_n_n.contr.Idx) : (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_1 (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's matrix product into the zero splat, at (r, h): the sum over the contracted coordinate. -/
theorem matmul_at (a b : FVec Ideal S1024x1024 .bf16) (r h : Fin 1024) :
    matmul (F := Ideal) dot_S1024x1024_S1024x1024_S1024x1024_1_0_0_1_n_n none a b (constant (F := Ideal) S1024x1024 .f32 0x00000000#32) (ix2 r h)
      = ∑ d : Fin 1024, a (ix2 r d) * b (ix2 d h) := by
  refine (Ideal.matmul_constant_zero_apply dot_S1024x1024_S1024x1024_S1024x1024_1_0_0_1_n_n none a b (ix2 r h)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r h) ((ValueIdx.contrEquiv1 dot_S1024x1024_S1024x1024_S1024x1024_1_0_0_1_n_n 1024 rfl rfl).symm k) = ix2 r k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 r h) ((ValueIdx.contrEquiv1 dot_S1024x1024_S1024x1024_S1024x1024_1_0_0_1_n_n 1024 rfl rfl).symm k) = ix2 k h := funext fun a => Fin.ext (by
    match a with
    | ⟨0, _⟩ => exact (rhs_0 _ _).trans hk
    | ⟨1, _⟩ => exact rhs_1 _ _)
  rw [el, er]

/-- The body's lane sum of a [1024, 1024] value, at row r: the sum over the row. -/
theorem rowsum_at (v : FVec Ideal S1024x1024 .f32) (hR : S1024x1024.Reduces [1] S1024) (hφ : FKind.Formats .f32)
    (hacc : (0x00000000#32 : BitVec 32) = FKind.add.neutral .f32 hφ) (r : Fin 1024) :
    multiReduction (F := Ideal) .add [1] S1024 v 0x00000000#32 hR hφ hacc (ix1 r) = ∑ d : Fin 1024, v (ix2 r d) := by
  refine (Ideal.multiReduction_add_single v 0x00000000#32 hR hφ hacc (ix1 r)).trans ?_
  exact Finset.sum_congr rfl fun k _ => congrArg v (funext fun a => Fin.ext (by match a with | ⟨0, _⟩ => rfl | ⟨1, _⟩ => rfl))

/-- THE STORED VALUE AT AN ENTRY. -/
theorem payload_at (X : Vec Ideal S1024x1024 .f32) (A : Vec Ideal S1024x1024 .bf16) (p q : Vec Ideal S1x1024 .f32)
    (u : Vec Ideal S1x1 .f32) (s : Vec Ideal S1x1024 .f32) (r h : Fin 1024) :
    k0_pay1 (F := Ideal) X A p q u s (ix2 r h)
      = (s (ix2 (0 : Fin 1) h) * ((∑ d : Fin 1024, X (ix2 r d) * A (ix2 d h)) + p (ix2 (0 : Fin 1) h)))
          * ((∑ d : Fin 1024, X (ix2 r d) * q (ix2 (0 : Fin 1) d)) + u (ix2 (0 : Fin 1) (0 : Fin 1))) := by
  unfold k0_pay1
  simp only [shapeCast_self]
  -- the gate, the product, the bias: one row broadcast over the block's rows each
  have e1 : broadcastTo S1024x1024 s broadcasts_S1x1024_S1024x1024 (ix2 r h) = s (ix2 (0 : Fin 1) h) :=
    broadcastTo_1b_ab_apply s _ r h
  have e2 : matmul (F := Ideal) dot_S1024x1024_S1024x1024_S1024x1024_1_0_0_1_n_n none (truncf .bf16 X bitsLt_bf16_f32) A (constant (F := Ideal) S1024x1024 .f32 0x00000000#32) (ix2 r h)
      = ∑ d : Fin 1024, X (ix2 r d) * A (ix2 d h) := matmul_at (truncf .bf16 X bitsLt_bf16_f32) A r h
  have e3 : broadcastTo S1024x1024 p broadcasts_S1x1024_S1024x1024 (ix2 r h) = p (ix2 (0 : Fin 1) h) :=
    broadcastTo_1b_ab_apply p _ r h
  -- the row's mean term: the row sum as a column, plus the scalar, broadcast back along the row
  have e4 : ∀ (hR : S1024x1024.Reduces [1] S1024) (hφ : FKind.Formats .f32) (hacc : (0x00000000#32 : BitVec 32) = FKind.add.neutral .f32 hφ),
      broadcastTo S1024x1024
        (addf (shapeCast S1024x1 (multiReduction (F := Ideal) .add [1] S1024 (mulf X (broadcastTo S1024x1024 q broadcasts_S1x1024_S1024x1024)) 0x00000000#32 hR hφ hacc) shapeCasts_S1024_S1024x1)
          (broadcastTo S1024x1 u broadcasts_S1x1_S1024x1)) broadcasts_S1024x1_S1024x1024 (ix2 r h)
      = (∑ d : Fin 1024, X (ix2 r d) * q (ix2 (0 : Fin 1) d)) + u (ix2 (0 : Fin 1) (0 : Fin 1)) := by
    intro hR hφ hacc
    refine (Cert.LibColumn.broadcastTo_a1_ab_apply _ broadcasts_S1024x1_S1024x1024 r h).trans ?_
    refine congrArg₂ (· + ·) ?_ (broadcastTo_1b_ab_apply u broadcasts_S1x1_S1024x1 r (0 : Fin 1))
    refine (Cert.LibColumn.shapeCast_a_a1_apply _ shapeCasts_S1024_S1024x1 r (0 : Fin 1)).trans ?_
    refine (rowsum_at _ hR hφ hacc r).trans ?_
    exact Finset.sum_congr rfl fun d _ => congrArg (X (ix2 r d) * ·) (broadcastTo_1b_ab_apply q broadcasts_S1x1024_S1024x1024 r d)
  exact congrArg₂ (· * ·) (congrArg₂ (· * ·) e1 (congrArg₂ (· + ·) e2 e3)) (e4 _ _ _)

end Cert.KernelIdeal.Payload

end
-- ==== Proof.KerPoint.lean ====
/-
  One entry of one block against the whole result. Let the body's six blocks at some grid point hold: rows of x (the row r of the
  block being row (b, n) of x), Wa, ba, the row means of Wb, the mean of bb, and g. Then entry (r, h) of what the body stores is
  entry (b, n, h) of `Gker`, and that is the entry of `Gker` laid out as a [32768, 1024] array at any index whose row is
  4096 · b + n and whose column is h (rows of the [8, 4096, 1024] array are numbered row-major).
-/
import proofs.«159089_j16071767621818_1_alg».proof.Proof.KerPayload
import proofs.«159089_j16071767621818_1_alg».proof.Proof.Spec

noncomputable section

namespace Cert.KernelIdeal.Point

open Cert.KernelIdeal Cert.KernelIdeal.Gen Idealize.ShloMosaic Idealize.ShloMosaic.ValueIdx Cert.Spec

/-- `Gker` laid out as the [32768, 1024] array the region writes. -/
def G2 (hc : S8x4096x1024.ShapeCasts S32768x1024) (x : A3) (Wa : A2) (ba : A1) (Wb : A2) (bb g : A1) : S32768x1024.Idx → EReal :=
  shapeCast S32768x1024 (Gker x Wa ba Wb bb g) hc

/-- Its entry at row 4096 · b + n and column h is entry (b, n, h) of `Gker`. -/
theorem G2_at (hc : S8x4096x1024.ShapeCasts S32768x1024) (x : A3) (Wa : A2) (ba : A1) (Wb : A2) (bb g : A1)
    (k : S32768x1024.Idx) (b : Fin 8) (n : Fin 4096) (h : Fin 1024)
    (hk0 : (k 0).val = 4096 * b.val + n.val) (hk1 : (k 1).val = h.val) :
    G2 hc x Wa ba Wb bb g k = Gker x Wa ba Wb bb g (ix3 b n h) := by
  unfold G2
  refine shapeCast_apply (Gker x Wa ba Wb bb g) hc k (ix3 b n h) ?_
  rw [Shape.rowMajor_val_three, Shape.rowMajor_val_two]
  show (b.val * 4096 + n.val) * 1024 + h.val = (k 0).val * 1024 + (k 1).val
  rw [hk0, hk1]
  omega

/-- THE ENTRY: what the body stores at (r, h) is `Gker` at (b, n, h). -/
theorem stored_at (X : Vec Ideal S1024x1024 .f32) (A : Vec Ideal S1024x1024 .bf16) (p q : Vec Ideal S1x1024 .f32)
    (u : Vec Ideal S1x1 .f32) (s : Vec Ideal S1x1024 .f32) (x : A3) (Wa : A2) (ba : A1) (Wb : A2) (bb g : A1)
    (r h : Fin 1024) (b : Fin 8) (n : Fin 4096)
    (hX : ∀ d : Fin 1024, X (ix2 r d) = x (ix3 b n d)) (hA : ∀ d : Fin 1024, A (ix2 d h) = Wa (ix2 d h))
    (hp : p (ix2 (0 : Fin 1) h) = ba (ix1 h)) (hq : ∀ d : Fin 1024, q (ix2 (0 : Fin 1) d) = rowMean Wb d)
    (hu : u (ix2 (0 : Fin 1) (0 : Fin 1)) = biasMean bb) (hs : s (ix2 (0 : Fin 1) h) = g (ix1 h)) :
    k0_pay1 (F := Ideal) X A p q u s (ix2 r h) = Gker x Wa ba Wb bb g (ix3 b n h) := by
  rw [Payload.payload_at, hp, hu, hs]
  simp only [hX, hA, hq]
  rfl

end Cert.KernelIdeal.Point

end
-- ==== Proof.LibSumIdx1.lean ====
/-
  A rank-1 index is its one coordinate: a sum over every index of a vector of length n is the sum over the coordinate
  a : Fin n of the entry at that coordinate (the rank-1 companion of the library's rank-2 double sum). What a sum of a vector
  over its only axis into a scalar needs, once the sum is read as a sum over all indices.
-/
import Idealize.ShloMosaic.Lib.ValueIdx

namespace Cert.LibSumIdx1

open Idealize.ShloMosaic Idealize.ShloMosaic.ValueIdx

/-- A sum over the indices of a length-n vector is the sum over the coordinate, in any additive commutative monoid. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

end Cert.LibSumIdx1
-- ==== Proof.KerHost.lean ====
import proofs.«159089_j16071767621818_1_alg».proof.Proof.Gen.KernelIdeal.Frame
import proofs.«159089_j16071767621818_1_alg».proof.Proof.Spec
import proofs.«159089_j16071767621818_1_alg».proof.Proof.LibSumIdx1
import Idealize.ShloMosaic.Lib.ValueLayout
import Idealize.ShloMosaic.Lib.ValueIdx
import Idealize.ShloMosaic.Lib.Pipeline.Value
import Idealize.ShloMosaic.PureOps.Ideal.Laws
import Idealize.ShloMosaic.Lib.StableHlo.Run

/-!
# What the six arrays the region reads hold, entry by entry

Before its one region the program computes six arrays from its arguments x : [8, 4096, 1024], Wa, Wb : [1024, 1024] and
ba, bb, g : [1024], all over the extended reals:

* x laid out as [32768, 1024]: row R = 4096 · b + n of the new array is row (b, n) of x, because both layouts list the
  entries in the same row-major order;
* Wa converted to a narrower format, which on the extended reals changes no entry;
* ba and g each laid out as a [1, 1024] row: entry (0, h) is entry h;
* the row means of Wb as a [1, 1024] row: entry (0, d) is (0 + Σ_h Wb(d, h)) / 1024, the sum starting from what the zero
  word denotes and the divisor being what the word of 1024 denotes;
* the mean of bb as a [1, 1] array: its one entry is (0 + Σ_h bb h) / 1024, likewise.

Each lemma below reads one of these arrays at an index and names the entry in terms of the arguments as launched. A sum
over one axis of a matrix is the initial value plus the sum over that axis's coordinate; a sum over every axis of a vector is
the initial value plus the sum over all its indices, re-indexed here by the coordinate; a quotient of arrays is the quotient
entry by entry; and a constant array reads its constant everywhere.
-/

noncomputable section

namespace Cert.KernelIdeal.HostPre

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-! ## The six arrays as terms over the arguments as launched -/

/-- The first array is x cast from [8, 4096, 1024] to [32768, 1024]. -/
theorem v0_term : (V m c main_v0 : S32768x1024.Idx → EReal)
    = shapeCast S32768x1024 (m ((c : Thread nD τ).loc main_arg0) : S8x4096x1024.Idx → EReal) shapeCasts_S8x4096x1024_S32768x1024 := by
  show StableHlo.after hostOps0 (fun b => m (c, b)) (Proc.devRef .tc main_v0) = _
  after_results
  rfl

/-- The second is Wa converted to the narrower format. -/
theorem v1_term : (V m c main_v1 : S1024x1024.Idx → EReal)
    = (truncf (F := Ideal) .bf16 (m ((c : Thread nD τ).loc main_arg1) : FVec Ideal S1024x1024 .f32) bitsLt_bf16_f32 : S1024x1024.Idx → EReal) := by
  show StableHlo.after hostOps0 (fun b => m (c, b)) (Proc.devRef .tc main_v1) = _
  after_results

/-- The third is ba cast from [1024] to [1, 1024]. -/
theorem v2_term : (V m c main_v2 : S1x1024.Idx → EReal)
    = shapeCast S1x1024 (m ((c : Thread nD τ).loc main_arg2) : S1024.Idx → EReal) shapeCasts_S1024_S1x1024 := by
  show StableHlo.after hostOps0 (fun b => m (c, b)) (Proc.devRef .tc main_v2) = _
  after_results
  rfl

/-- The fourth is g cast from [1024] to [1, 1024]. -/
theorem v3_term : (V m c main_v3 : S1x1024.Idx → EReal)
    = shapeCast S1x1024 (m ((c : Thread nD τ).loc main_arg5) : S1024.Idx → EReal) shapeCasts_S1024_S1x1024 := by
  show StableHlo.after hostOps0 (fun b => m (c, b)) (Proc.devRef .tc main_v3) = _
  after_results
  rfl

/-- The fifth is, cast from [1024] to [1, 1024], the sum of Wb along its second axis from the zero constant, divided entry by
    entry by the constant 1024 broadcast to [1024]. -/
theorem v7_term : (V m c main_v7 : S1x1024.Idx → EReal)
    = shapeCast S1x1024
        (Host.divf (F := Ideal)
          (Host.reduceAdd (F := Ideal) (m ((c : Thread nD τ).loc main_arg3) : FVec Ideal S1024x1024 .f32)
            (constant (F := Ideal) S_ .f32 0x00000000#32) reducesTo_S1024x1024_S1024_d1 h_S_)
          (broadcastInDim S1024 ![] bcast_S_S1024 (constant (F := Ideal) S_ .f32 0x44800000#32)) : S1024.Idx → EReal)
        shapeCasts_S1024_S1x1024 := by
  show StableHlo.after hostOps0 (fun b => m (c, b)) (Proc.devRef .tc main_v7) = _
  after_results
  rfl

/-- The sixth is, cast from a scalar to [1, 1], the sum of bb over its one axis from the zero constant, divided by the scalar
    constant 1024. -/
theorem v10_term : (V m c main_v10 : S1x1.Idx → EReal)
    = shapeCast S1x1
        (Host.divf (F := Ideal)
          (Host.reduceAdd (F := Ideal) (m ((c : Thread nD τ).loc main_arg4) : FVec Ideal S1024 .f32)
            (constant (F := Ideal) S_ .f32 0x00000000#32) reducesTo_S1024_S_d0 h_S_)
          (constant (F := Ideal) S_ .f32 0x44800000#32) : S_.Idx → EReal)
        shapeCasts_S_S1x1 := by
  show StableHlo.after hostOps0 (fun b => m (c, b)) (Proc.devRef .tc main_v10) = _
  after_results
  rfl

/-! ## The six arrays read at an index -/

/-- Row R = 4096 · b + n, column d of the [32768, 1024] layout of x is x(b, n, d): both have row-major position
    (4096 · b + n) · 1024 + d. -/
theorem v0_at (R : Fin 32768) (d : Fin 1024) (b : Fin 8) (n : Fin 4096) (hR : R.val = 4096 * b.val + n.val) :
    (V m c main_v0 : S32768x1024.Idx → EReal) (ix2 R d) = (m ((c : Thread nD τ).loc main_arg0) : S8x4096x1024.Idx → EReal) (ix3 b n d) :=
  (congrFun (v0_term m c) (ix2 R d)).trans (shapeCast_apply _ _ _ (ix3 b n d) (by
    rw [Shape.rowMajor_val_three, Shape.rowMajor_val_two]
    show (b.val * 4096 + n.val) * 1024 + d.val = R.val * 1024 + d.val
    omega))

/-- The conversion changes no entry: entry (d, h) is Wa(d, h). -/
theorem v1_at (d h : Fin 1024) : (V m c main_v1 : S1024x1024.Idx → EReal) (ix2 d h) = (m ((c : Thread nD τ).loc main_arg1) : S1024x1024.Idx → EReal) (ix2 d h) :=
  congrFun (v1_term m c) (ix2 d h)

/-- Entry (0, h) of the [1, 1024] layout of ba is ba h. -/
theorem v2_at (h : Fin 1024) : (V m c main_v2 : S1x1024.Idx → EReal) (ix2 (0 : Fin 1) h) = (m ((c : Thread nD τ).loc main_arg2) : S1024.Idx → EReal) (ix1 h) :=
  (congrFun (v2_term m c) (ix2 (0 : Fin 1) h)).trans (shapeCast_a_1a_apply _ _ (0 : Fin 1) h)

/-- Entry (0, h) of the [1, 1024] layout of g is g h. -/
theorem v3_at (h : Fin 1024) : (V m c main_v3 : S1x1024.Idx → EReal) (ix2 (0 : Fin 1) h) = (m ((c : Thread nD τ).loc main_arg5) : S1024.Idx → EReal) (ix1 h) :=
  (congrFun (v3_term m c) (ix2 (0 : Fin 1) h)).trans (shapeCast_a_1a_apply _ _ (0 : Fin 1) h)

/-- The sum of a [1024, 1024] matrix along its second axis, from the zero constant, read at row d: what the zero word denotes
    plus the sum over h of the entries (d, h). -/
theorem rowSum_at (W : FVec Ideal S1024x1024 .f32) (d : Fin 1024) :
    Host.reduceAdd (F := Ideal) W (constant (F := Ideal) S_ .f32 0x00000000#32) reducesTo_S1024x1024_S1024_d1 h_S_ (ix1 d)
      = Cert.Spec.czero + ∑ h : Fin 1024, W (ix2 d h) := by
  simp only [Host.reduceAdd, Ideal.hostReduceAdd_def]
  rw [Ideal.hostReduceAdd_single reducesTo_S1024x1024_S1024_d1 (by decide)]
  refine congrArg (_ + ·) (Finset.sum_congr rfl fun k _ => ?_)
  exact congrArg W (funext fun a => Fin.ext (by match a with | ⟨0, _⟩ => rfl | ⟨1, _⟩ => rfl))

/-- Entry (0, d) of the fifth array is the mean of row d of Wb. -/
theorem v7_at (d : Fin 1024) : (V m c main_v7 : S1x1024.Idx → EReal) (ix2 (0 : Fin 1) d) = Cert.Spec.rowMean (m ((c : Thread nD τ).loc main_arg3)) d := by
  refine (congrFun (v7_term m c) (ix2 (0 : Fin 1) d)).trans ?_
  refine (shapeCast_a_1a_apply _ _ (0 : Fin 1) d).trans ?_
  exact congrArg (Ideal.div · Cert.Spec.c1024) (rowSum_at _ d)

/-- The sum of a [1024] vector over its one axis, from the zero constant, read at the scalar's one index: what the zero word
    denotes plus the sum over h of the entries. -/
theorem biasSum_at (bb : FVec Ideal S1024 .f32) :
    Host.reduceAdd (F := Ideal) bb (constant (F := Ideal) S_ .f32 0x00000000#32) reducesTo_S1024_S_d0 h_S_ ix0
      = Cert.Spec.czero + ∑ h : Fin 1024, bb (ix1 h) := by
  simp only [Host.reduceAdd, Ideal.hostReduceAdd_def]
  rw [Ideal.hostReduceAdd_total reducesTo_S1024_S_d0 (fun a => a.elim0)]
  exact congrArg (_ + ·) (Cert.LibSumIdx1.sum_idx1 bb)

/-- The one entry of the sixth array is the mean of bb. The scalar's one index and the index (0, 0) of a [1, 1] array both
    have row-major position 0. -/
theorem v10_at : (V m c main_v10 : S1x1.Idx → EReal) (ix2 (0 : Fin 1) (0 : Fin 1)) = Cert.Spec.biasMean (m ((c : Thread nD τ).loc main_arg4)) := by
  refine (congrFun (v10_term m c) (ix2 (0 : Fin 1) (0 : Fin 1))).trans ?_
  refine (shapeCast_apply _ _ _ ix0 ?_).trans ?_
  · rw [Shape.rowMajor_val_two]
    have h0 := (S_.rowMajor ix0).isLt
    have h1 : S_.numel = 1 := by decide
    show (S_.rowMajor ix0).val = 0 * 1 + 0
    omega
  · exact congrArg (Ideal.div · Cert.Spec.c1024) (biasSum_at _)

end Cert.KernelIdeal.HostPre

end
-- ==== Proof.KerBlocks.lean ====
/-
  From blocks to the array the region writes. Grid point t (of 32) stages rows 1024·t … 1024·t + 1023 of the [32768, 1024] row
  layout of x and the whole of the five small operands, and writes back rows 1024·t … 1024·t + 1023 of the result. Entry (r, h) of what
  it writes is entry (b, n, h) of `Gker` of the arguments, where 4096·b + n = 1024·t + r: so every write-back is a block of ONE
  [32768, 1024] array, `Gker` in row layout, and since the 32 row blocks cover the array it ends holding exactly that.
-/
import proofs.«159089_j16071767621818_1_alg».proof.Proof.Gen.KernelIdeal.Frame
import proofs.«159089_j16071767621818_1_alg».proof.Proof.KerPoint
import proofs.«159089_j16071767621818_1_alg».proof.Proof.KerHost
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

theorem hz : (![0, 0] : Fin 2 → Nat) = fun _ => 0 := funext fun a => by fin_cases a <;> rfl

/-- The result in row layout, of the arguments as launched. -/
abbrev R2 (c : Dev nD) : S32768x1024.Idx → EReal :=
  Point.G2 shapeCasts_S8x4096x1024_S32768x1024 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The printed index maps over the grid: the x window and the output window are at row block t, every other window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The x window's block at point t is rows 1024·t … of the row layout of x. -/
theorem iblk0_at (c : Dev nD) (t : Fin cfg0.N) (y : S1024x1024.Idx) (k : S32768x1024.Idx)
    (hk0 : (k 0).val = 1024 * t.val + (y 0).val) (hk1 : (k 1).val = (y 1).val) :
    (iblk m c 0 t : Vec Ideal S1024x1024 .f32) y = (V m c main_v0 : S32768x1024.Idx → EReal) k := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- Each of the five small windows' blocks is its whole array, at every point. -/
theorem iblk1_at (c : Dev nD) (t : Fin cfg0.N) (y : S1024x1024.Idx) :
    (iblk m c 1 t : Vec Ideal S1024x1024 .bf16) y = (V m c main_v1 : S1024x1024.Idx → EReal) y := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega
theorem iblk2_at (c : Dev nD) (t : Fin cfg0.N) (y : S1x1024.Idx) :
    (iblk m c 2 t : Vec Ideal S1x1024 .f32) y = (V m c main_v2 : S1x1024.Idx → EReal) y := by
  obtain ⟨-, -, -, -, e0, e1, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega
theorem iblk3_at (c : Dev nD) (t : Fin cfg0.N) (y : S1x1024.Idx) :
    (iblk m c 3 t : Vec Ideal S1x1024 .f32) y = (V m c main_v3 : S1x1024.Idx → EReal) y := by
  obtain ⟨-, -, -, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega
theorem iblk4_at (c : Dev nD) (t : Fin cfg0.N) (y : S1x1024.Idx) :
    (iblk m c 4 t : Vec Ideal S1x1024 .f32) y = (V m c main_v7 : S1x1024.Idx → EReal) y := by
  obtain ⟨-, -, -, -, -, -, -, -, e0, e1, -⟩ := idx_facts t
  unfold iblk
  rw [View.read_apply]
  show V m c main_v7 _ = V m c main_v7 _
  refine congrArg (V m c main_v7) (funext fun a => Fin.ext ?_)
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega
theorem iblk5_at (c : Dev nD) (t : Fin cfg0.N) (y : S1x1.Idx) :
    (iblk m c 5 t : Vec Ideal S1x1 .f32) y = (V m c main_v10 : S1x1.Idx → EReal) y := by
  obtain ⟨-, -, -, -, -, -, -, -, -, -, e0, e1, -⟩ := idx_facts t
  unfold iblk
  rw [View.read_apply]
  show V m c main_v10 _ = V m c main_v10 _
  refine congrArg (V m c main_v10) (funext fun a => Fin.ext ?_)
  match a with
  | ⟨0, _⟩ => show win0_5.index t (0 : Fin 2) * 1 + 1 * (y 0).val = (y 0).val; rw [e0]; omega
  | ⟨1, _⟩ => show win0_5.index t (1 : Fin 2) * 1 + 1 * (y 1).val = (y 1).val; rw [e1]; omega

/-- WHAT POINT t WRITES BACK is block t of the result in row layout. -/
theorem flushed_eq (c : Dev nD) (t : Fin cfg0.N) :
    (dats m 0 c).flushed 6 t = ((cfg0.win 6).blk t).view.read (Elt Ideal) (R2 m c) := by
  show (cfg0.win 6).cut (grid0.coords t) ((dats m 0 c).after 6 t) = _
  rw [after0_6]
  unfold out0_6
  rw [View.canon_unit_zero hz]
  simp only [View.ld_unit_zero (S := S1024x1024) hz, View.ld_unit_zero (S := S1x1024) hz, View.ld_unit_zero (S := S1x1) hz]
  obtain ⟨-, -, -, -, -, -, -, -, -, -, -, -, e0, e1⟩ := idx_facts t
  have hN : cfg0.N = 32 := N_0
  have ht : t.val < 32 := hN ▸ t.isLt
  funext j
  obtain ⟨r, h, rfl⟩ : ∃ (r h : Fin 1024), j = ix2 r h :=
    ⟨⟨(j 0).val, (j 0).isLt⟩, ⟨(j 1).val, (j 1).isLt⟩, funext fun a => by match a with | ⟨0, _⟩ => rfl | ⟨1, _⟩ => rfl⟩
  rw [View.read_apply]
  have hr : r.val < 1024 := r.isLt
  refine (Point.stored_at (iblk m c 0 t) (iblk m c 1 t) (iblk m c 2 t) (iblk m c 4 t) (iblk m c 5 t) (iblk m c 3 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r h
      ⟨(1024 * t.val + r.val) / 4096, by omega⟩ ⟨(1024 * t.val + r.val) % 4096, by omega⟩
      (fun d => (iblk0_at m c t (ix2 r d) (ix2 ⟨1024 * t.val + r.val, by omega⟩ d) rfl rfl).trans
        (HostPre.v0_at m c ⟨1024 * t.val + r.val, by omega⟩ d _ _ (by show 1024 * t.val + r.val = 4096 * ((1024 * t.val + r.val) / 4096) + (1024 * t.val + r.val) % 4096; omega)))
      (fun d => (iblk1_at m c t (ix2 d h)).trans (HostPre.v1_at m c d h))
      ((iblk2_at m c t (ix2 (0 : Fin 1) h)).trans (HostPre.v2_at m c h))
      (fun d => (iblk4_at m c t (ix2 (0 : Fin 1) d)).trans (HostPre.v7_at m c d))
      ((iblk5_at m c t (ix2 (0 : Fin 1) (0 : Fin 1))).trans (HostPre.v10_at m c))
      ((iblk3_at m c t (ix2 (0 : Fin 1) h)).trans (HostPre.v3_at m c h))).trans ?_
  refine (Point.G2_at shapeCasts_S8x4096x1024_S32768x1024 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ h ?_ ?_).symm
  · show win0_6.index t (0 : Fin 2) * 1024 + 1 * r.val = 4096 * ((1024 * t.val + r.val) / 4096) + (1024 * t.val + r.val) % 4096
    rw [e0]; omega
  · show win0_6.index t (1 : Fin 2) * 1024 + 1 * h.val = h.val
    rw [e1]; omega

/-- An index of the array is in point t's block iff each coordinate is in the block's range on its axis. -/
theorem mem_blk (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v11).slice (win0_6.rect t)).set ↔ _
  rw [View.set_slice_whole, Rect.mem_set_unit]
  exact Iff.rfl

/-- Every index of the array is in the block of the point its row falls in. -/
theorem cover (i : S32768x1024.Idx) : ∃ t : Fin cfg0.N, (cfg0.win 6).flush t = true ∧ i ∈ ((cfg0.win 6).blk t).view.set := by
  have hN : cfg0.N = 32 := N_0
  have hi0 : (i 0).val < 32768 := (i 0).isLt
  have hi1 : (i 1).val < 1024 := (i 1).isLt
  refine ⟨⟨(i 0).val / 1024, by rw [hN]; omega⟩, flush0_6 _, ?_⟩
  rw [mem_blk]
  obtain ⟨-, -, -, -, -, -, -, -, -, -, -, -, e0, e1⟩ := idx_facts ⟨(i 0).val / 1024, by rw [hN]; omega⟩
  intro a
  match a with
  | ⟨0, _⟩ =>
    show win0_6.index _ (0 : Fin 2) * 1024 ≤ (i 0).val ∧ (i 0).val < win0_6.index _ (0 : Fin 2) * 1024 + 1024
    rw [e0]; show (i 0).val / 1024 * 1024 ≤ (i 0).val ∧ (i 0).val < (i 0).val / 1024 * 1024 + 1024; omega
  | ⟨1, _⟩ =>
    show win0_6.index _ (1 : Fin 2) * 1024 ≤ (i 1).val ∧ (i 1).val < win0_6.index _ (1 : Fin 2) * 1024 + 1024
    rw [e1]; omega

/-- THE ARRAY after the region: the result in row layout. -/
theorem final (c : Dev nD) : (dats m 0 c).arrAt 6 cfg0.N = R2 m c :=
  (dats m 0 c).arrAt_eq_of_cover 6 (R2 m c) (fun t _ => flushed_eq m c t) cover

end Cert.KernelIdeal.Blocks

end
-- ==== Proof.KerRun.lean ====
/-
  The run of the idealized kernel program, read. After the region the one remaining host line reshapes the [32768, 1024] array
  back to [8, 4096, 1024]; the region left `Gker` of the arguments in row layout there, and a reshape there and back is the
  identity: the program's result is `Gker` of the arguments as launched, and the arguments end unchanged.
-/
import proofs.«159089_j16071767621818_1_alg».proof.Proof.KerBlocks
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

/-- The program's result: `Gker` of the arguments as launched. -/
abbrev result (c : Dev nD) : S8x4096x1024.Idx → EReal :=
  Gker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The host line after the region turns the row layout back into the result. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  have hw := (Pipeline.withArrays_arr spec0 launch0.win.arr_inj c (V0 m c) (fun w => (dats m 0 c).arrAt w cfg0.N) 6).trans (Blocks.final m c)
  show shapeCast S8x4096x1024 (Pipeline.withArrays spec0 c (V0 m c) (fun w => (dats m 0 c).arrAt w cfg0.N) (Proc.devRef .tc main_v11))
    shapeCasts_S32768x1024_S8x4096x1024 = _
  rw [hw]
  exact shapeCast_shapeCast _ _ _

/-- THE RUN, READ: every weakly fair execution ends with the result array at `Gker` of the arguments and the arguments unchanged. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Run

end
-- ==== Proof.lean ====
/-
  The five claims about one kernel and its reference, both computing, for x : [8, 4096, 1024], Wa, Wb : [1024, 1024] and
  ba, bb, g : [1024],

      out(b, n, h) = g h · (Σ_d x(b,n,d) · Wa(d,h) + ba h) · mean over h' of (Σ_d x(b,n,d) · Wb(d,h') + bb h').

  The reference takes the mean as written. The kernel takes the means of Wb's rows and of bb once on the host, and per row block
  forms x against those row means plus the mean of bb — the mean moved inside the contraction. Over the extended reals the two
  agree where x, Wb and bb are finite (the division by 1024 distributes over the sums and the two sums exchange): that is the one
  place the precondition is used. The three frames are the generated ones (the reference's is its run with the result dropped), and
  the idealized kernel is the kernel's own text read at the extended reals, so nothing is owed for it.
-/
import proofs.«159089_j16071767621818_1_alg».proof.Defs
import proofs.«159089_j16071767621818_1_alg».proof.Proof.Gen.Kernel
import proofs.«159089_j16071767621818_1_alg».proof.Proof.Gen.Kernel.Skeleton
import proofs.«159089_j16071767621818_1_alg».proof.Proof.Gen.Kernel.Launch
import proofs.«159089_j16071767621818_1_alg».proof.Proof.Gen.Kernel.Points
import proofs.«159089_j16071767621818_1_alg».proof.Proof.Gen.Kernel.Frame
import proofs.«159089_j16071767621818_1_alg».proof.Proof.Gen.KernelIdeal
import proofs.«159089_j16071767621818_1_alg».proof.Proof.Gen.KernelIdeal.Skeleton
import proofs.«159089_j16071767621818_1_alg».proof.Proof.Gen.KernelIdeal.Launch
import proofs.«159089_j16071767621818_1_alg».proof.Proof.Gen.KernelIdeal.Points
import proofs.«159089_j16071767621818_1_alg».proof.Proof.Gen.KernelIdeal.Frame
import proofs.«159089_j16071767621818_1_alg».proof.Proof.Gen.ReferenceIdeal
import proofs.«159089_j16071767621818_1_alg».proof.Proof.Gen.Pre_finite_inputs
import proofs.«159089_j16071767621818_1_alg».proof.Proof.Gen.ReferenceIdeal.Run
import proofs.«159089_j16071767621818_1_alg».proof.Proof.Gen.ReferenceIdeal.Read
import proofs.«159089_j16071767621818_1_alg».proof.Proof.Spec
import proofs.«159089_j16071767621818_1_alg».proof.Proof.RefValue
import proofs.«159089_j16071767621818_1_alg».proof.Proof.Finite
import proofs.«159089_j16071767621818_1_alg».proof.Proof.KerRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end: the kernel at the result with the mean moved inside the contraction, the reference at the result with the
    mean as written, of arguments that agree; finite x, Wb and bb make the two one function. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2.1, (hagree c).2.2.2.2.2]
  obtain ⟨h0, -, -, h3, h4, -⟩ := Cert.Finite.real_of_pre _ _ _ _ _ _ (hpre c)
  exact Cert.Spec.Gref_eq_Gker _ _ _ _ _ _ h0 h3 h4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
